-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16 .f32) (main_arg6 : FVec F S16x2 .f32) (main_arg7 : FVec F S2 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) (main_arg6 : FVec F S16x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x1, .f32⟩
  | .hbm, ⟨77, _⟩ => ⟨S3300000x16, .f32⟩
  | .hbm, ⟨78, _⟩ => ⟨S3300000x16, .f32⟩
  | .hbm, ⟨79, _⟩ => ⟨S_, .f32⟩
  | .hbm, ⟨80, _⟩ => ⟨S100000x16, .f32⟩
  | .hbm, ⟨81, _⟩ => ⟨S3300000x1, .i32⟩
  | .hbm, ⟨82, _⟩ => ⟨S100000x16, .f32⟩
  | .hbm, ⟨83, _⟩ => ⟨S1x16, .f32⟩
  | .hbm, ⟨84, _⟩ => ⟨S1x2, .f32⟩
  | .hbm, ⟨85, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x2, .f32⟩
  | .local _ .vmem, ⟨15, _⟩ => ⟨S1x2, .f32⟩
  | .local _ .vmem, ⟨16, _⟩ => ⟨S10000x2, .f32⟩
  | .local _ .vmem, ⟨17, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  shapeCasts_S2_S1x2 : S2.ShapeCasts S1x2
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x2.size a ≤ S16x2.size a
  hwx2_2 : ∀ i : grid2.Coords, EltTy.bits .f32 = 32 ∨ (Rect.block (s := S16x2) S16x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S100000x2.size a
  hwx2_4 : ∀ i : grid2.Coords, EltTy.bits .f32 = 32 ∨ (Rect.block (s := S100000x2) S10000x2.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S1x2 : Shape := ⟨2, ![1, 2]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x16, .f32⟩
  | 5 => ⟨S16, .f32⟩
  | 6 => ⟨S16x2, .f32⟩
  | 7 => ⟨S2, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S100000x16, .f32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x1, .f32⟩
  | 115 => ⟨S3300000x16, .f32⟩
  | 116 => ⟨S3300000x16, .f32⟩
  | 117 => ⟨S_, .f32⟩
  | 118 => ⟨S100000x16, .f32⟩
  | 119 => ⟨S3300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000x16, .f32⟩
  | 126 => ⟨S100000x16, .f32⟩
  | 127 => ⟨S100000x2, .f32⟩
  | _ => ⟨S100000x128, .f32⟩

abbrev hbmTy0_1 (i : Nat) : BufTy := match i % 128 with
  | 0 => ⟨S1x2, .f32⟩
  | 1 => ⟨S100000x2, .f32⟩
  | 2 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x2_S100000x2_1_0_0_1_n_n_wf : DotDims.WF S100000x16 S16x2 S100000x2 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.KernelRun.lean ====
/-
  The idealized kernel program's run, with its result named.
  @main is eight segments: three stretches of host operations, the first region, a stretch, the second region, a
  stretch, the third region. Every weakly fair execution of it terminates without a fault, and the final memory holds,
  at every buffer the program does not scope, the contents the last segment boundary has: the fold of the host stretches
  and of each region's write-backs from the launch memory. Read at the result buffer that is the third region's output
  array as the region leaves it; read at an argument it is the launch contents.
-/
import proofs.«171253_j53051436040231_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowLayers.lean ====
/-
  Three row-wise layers on the extended reals, each in the form a kernel tile computes it and in the form the host
  computes it, for any extents.

  For an array x : [N, K], a matrix W : [K, C], an array s : [N, C] and a one-row array b : [1, C]:
    • `prod x W`            : entry (i, j) is ∑ k, x (i, k) · W (k, j);
    • `biasRelu s b`        : entry (i, j) is max (s (i, j) + b (0, j)) 0;
    • `biasNormalize ε s b` : with h (i, k) = s (i, k) + b (0, k), entry (i, j) is
                                h (i, j) / max (sqrt (∑ k, h (i, k) · h (i, k))) ε.
  Every entry of each depends on its own row of x (or s) only, so a block of rows of the layer is the layer of that
  block of rows: that is what lets a row-tiled kernel be compared with the host's whole-array program.
  A kernel tile forms the product by a matrix product of bf16-narrowed operands into a zero accumulator (a change
  of format is the identity here), the bias by a broadcast of the row down the tile, the sum of squares by a lane
  sum kept as a column; the host forms them by dot_general, by broadcast_in_dim and by reduce from a zero initial
  value. Each form is shown equal, as a whole array, to the function above. No entry is assumed finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«171253_j53051436040231_1_alg».proof.Proof.LibPlainDot
import proofs.«171253_j53051436040231_1_alg».proof.Proof.LibKeepdims

noncomputable section

namespace RowLayers

open Idealize.ShloMosaic Idealize.ShloMosaic.ValueIdx
open scoped BigOperators

/-! ## The three layers as functions of whole arrays -/

/-- The matrix product x · W. -/
def prod {N K C : Nat} (x : (⟨2, ![N, K]⟩ : Shape).Idx → EReal) (w : (⟨2, ![K, C]⟩ : Shape).Idx → EReal) :
    (⟨2, ![N, C]⟩ : Shape).Idx → EReal :=
  fun i => ∑ k : Fin K, x (ix2 (i 0) k) * w (ix2 k (i 1))

/-- A one-row bias added to every row, clamped below at zero. -/
def biasRelu {N C : Nat} (s : (⟨2, ![N, C]⟩ : Shape).Idx → EReal) (b : (⟨2, ![1, C]⟩ : Shape).Idx → EReal) :
    (⟨2, ![N, C]⟩ : Shape).Idx → EReal :=
  fun i => max (s i + b (ix2 (0 : Fin 1) (i 1))) 0

/-- A one-row bias added to every row, each row then divided by the larger of its Euclidean norm and ε. -/
def biasNormalize {N C : Nat} (ε : EReal) (s : (⟨2, ![N, C]⟩ : Shape).Idx → EReal) (b : (⟨2, ![1, C]⟩ : Shape).Idx → EReal) :
    (⟨2, ![N, C]⟩ : Shape).Idx → EReal :=
  fun i => Ideal.div (s i + b (ix2 (0 : Fin 1) (i 1)))
    (max (Ideal.sqrt (∑ k : Fin C, (s (ix2 (i 0) k) + b (ix2 (0 : Fin 1) k)) * (s (ix2 (i 0) k) + b (ix2 (0 : Fin 1) k)))) ε)

theorem prod_apply {N K C : Nat} (x : (⟨2, ![N, K]⟩ : Shape).Idx → EReal) (w : (⟨2, ![K, C]⟩ : Shape).Idx → EReal)
    (p : Fin N) (q : Fin C) : prod x w (ix2 p q) = ∑ k : Fin K, x (ix2 p k) * w (ix2 k q) := rfl

theorem biasRelu_apply {N C : Nat} (s : (⟨2, ![N, C]⟩ : Shape).Idx → EReal) (b : (⟨2, ![1, C]⟩ : Shape).Idx → EReal)
    (p : Fin N) (q : Fin C) : biasRelu s b (ix2 p q) = max (s (ix2 p q) + b (ix2 (0 : Fin 1) q)) 0 := rfl

theorem biasNormalize_apply {N C : Nat} (ε : EReal) (s : (⟨2, ![N, C]⟩ : Shape).Idx → EReal)
    (b : (⟨2, ![1, C]⟩ : Shape).Idx → EReal) (p : Fin N) (q : Fin C) :
    biasNormalize ε s b (ix2 p q) = Ideal.div (s (ix2 p q) + b (ix2 (0 : Fin 1) q))
      (max (Ideal.sqrt (∑ k : Fin C, (s (ix2 p k) + b (ix2 (0 : Fin 1) k)) * (s (ix2 p k) + b (ix2 (0 : Fin 1) k)))) ε) := rfl

/-! ## A block of rows of a layer is the layer of the block -/

/-- If the block xb holds, at (p, k), the array's row r p, then the product of the block at (p, q) is the
    product of the array at (r p, q). -/
theorem prod_rows {R N K C : Nat} (xb : (⟨2, ![R, K]⟩ : Shape).Idx → EReal) (x : (⟨2, ![N, K]⟩ : Shape).Idx → EReal)
    (w : (⟨2, ![K, C]⟩ : Shape).Idx → EReal) (p : Fin R) (n : Fin N) (q : Fin C)
    (hx : ∀ k : Fin K, xb (ix2 p k) = x (ix2 n k)) : prod xb w (ix2 p q) = prod x w (ix2 n q) := by
  rw [prod_apply, prod_apply]
  exact Finset.sum_congr rfl fun k _ => by rw [hx k]

theorem biasRelu_rows {R N C : Nat} (sb : (⟨2, ![R, C]⟩ : Shape).Idx → EReal) (s : (⟨2, ![N, C]⟩ : Shape).Idx → EReal)
    (b : (⟨2, ![1, C]⟩ : Shape).Idx → EReal) (p : Fin R) (n : Fin N) (q : Fin C)
    (hs : ∀ k : Fin C, sb (ix2 p k) = s (ix2 n k)) : biasRelu sb b (ix2 p q) = biasRelu s b (ix2 n q) := by
  rw [biasRelu_apply, biasRelu_apply, hs q]

theorem biasNormalize_rows {R N C : Nat} (ε : EReal) (sb : (⟨2, ![R, C]⟩ : Shape).Idx → EReal)
    (s : (⟨2, ![N, C]⟩ : Shape).Idx → EReal) (b : (⟨2, ![1, C]⟩ : Shape).Idx → EReal) (p : Fin R) (n : Fin N) (q : Fin C)
    (hs : ∀ k : Fin C, sb (ix2 p k) = s (ix2 n k)) : biasNormalize ε sb b (ix2 p q) = biasNormalize ε s b (ix2 n q) := by
  rw [biasNormalize_apply, biasNormalize_apply, hs q]
  refine congrArg (fun t => Ideal.div _ (max (Ideal.sqrt t) ε)) ?_
  exact Finset.sum_congr rfl fun k _ => by rw [hs k]

/-! ## The forms of a kernel tile -/

/-- The square root of a vector, at an index. -/
theorem sqrt_apply {s : Shape} {φ : FTy} (a : FVec Ideal s φ) (i : s.Idx) : sqrt a i = Ideal.sqrt (a i) := rfl

/-- A matrix product of plain dimension numbers, of operands narrowed to bf16, into the zero accumulator. -/
theorem matmul_tile {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (x0 : FVec Ideal ⟨2, ![R, K]⟩ .f32) (x1 : FVec Ideal ⟨2, ![K, C]⟩ .f32) :
    matmul d prec (truncf .bf16 x0 hbits) (truncf .bf16 x1 hbits) (constant (F := Ideal) ⟨2, ![R, C]⟩ .f32 0x00000000#32)
      = prod x0 x1 := by
  subst hd
  funext j
  obtain ⟨p, q, rfl⟩ : ∃ (p : Fin R) (q : Fin C), j = ix2 p q := ⟨j 0, j 1, eq_ix2 j⟩
  show FloatOps.matmul (DotDims.plain R K C) prec (truncf .bf16 x0 hbits) (truncf .bf16 x1 hbits)
    (constant ⟨2, ![R, C]⟩ .f32 0x00000000#32) (ix2 p q) = _
  rw [Ideal.matmul_constant_zero_apply]
  refine (Cert.PlainDot.contraction_eq (truncf .bf16 x0 hbits) (truncf .bf16 x1 hbits) p q).trans ?_
  rfl

/-- The row b broadcast down the tile and added, clamped below by the splat of the zero word. -/
theorem biasRelu_tile {R C : Nat} (x0 : FVec Ideal ⟨2, ![R, C]⟩ .f32) (x1 : FVec Ideal ⟨2, ![1, C]⟩ .f32)
    (h0 : (⟨2, ![R, C]⟩ : Shape).ShapeCasts ⟨2, ![R, C]⟩) (h1 : (⟨2, ![1, C]⟩ : Shape).ShapeCasts ⟨2, ![1, C]⟩)
    (hb : (⟨2, ![1, C]⟩ : Shape).Broadcasts ⟨2, ![R, C]⟩) :
    maximumf (addf (shapeCast ⟨2, ![R, C]⟩ x0 h0) (broadcastTo ⟨2, ![R, C]⟩ (shapeCast ⟨2, ![1, C]⟩ x1 h1) hb))
        (broadcast ⟨2, ![R, C]⟩ (Scalar.ofBits (F := Ideal) .f32 0x00000000#32))
      = biasRelu x0 x1 := by
  funext j
  obtain ⟨p, q, rfl⟩ : ∃ (p : Fin R) (q : Fin C), j = ix2 p q := ⟨j 0, j 1, eq_ix2 j⟩
  rw [shapeCast_self x0 h0, shapeCast_self x1 h1, maximumf_apply, addf_apply, broadcast_apply, broadcastTo_1b_ab_apply,
    biasRelu_apply]
  exact congrArg (max _) Ideal.ofBits_zero_f32

/-- The row sum of squares of h = x0 + b kept as a column, its square root clamped below by the splat of the word
    of ε, spread back over the tile, dividing h. -/
theorem biasNormalize_tile {R C : Nat} (εBits : BitVec 32) (x0 : FVec Ideal ⟨2, ![R, C]⟩ .f32) (x1 : FVec Ideal ⟨2, ![1, C]⟩ .f32)
    (h0 : (⟨2, ![R, C]⟩ : Shape).ShapeCasts ⟨2, ![R, C]⟩) (h1 : (⟨2, ![1, C]⟩ : Shape).ShapeCasts ⟨2, ![1, C]⟩)
    (hb : (⟨2, ![1, C]⟩ : Shape).Broadcasts ⟨2, ![R, C]⟩)
    (hred : (⟨2, ![R, C]⟩ : Shape).Reduces [1] (⟨1, ![R]⟩ : Shape)) (hφ : FKind.Formats .f32)
    (hacc : (0x00000000#32 : BitVec 32) = 0x00000000#32)
    (hc : (⟨1, ![R]⟩ : Shape).ShapeCasts ⟨2, ![R, 1]⟩) (hb2 : (⟨2, ![R, 1]⟩ : Shape).Broadcasts ⟨2, ![R, C]⟩) :
    divf (addf (shapeCast ⟨2, ![R, C]⟩ x0 h0) (broadcastTo ⟨2, ![R, C]⟩ (shapeCast ⟨2, ![1, C]⟩ x1 h1) hb))
        (broadcastTo ⟨2, ![R, C]⟩
          (maximumf
            (sqrt (shapeCast ⟨2, ![R, 1]⟩
              (multiReduction (F := Ideal) .add [1] ⟨1, ![R]⟩
                (mulf (addf (shapeCast ⟨2, ![R, C]⟩ x0 h0) (broadcastTo ⟨2, ![R, C]⟩ (shapeCast ⟨2, ![1, C]⟩ x1 h1) hb))
                  (addf (shapeCast ⟨2, ![R, C]⟩ x0 h0) (broadcastTo ⟨2, ![R, C]⟩ (shapeCast ⟨2, ![1, C]⟩ x1 h1) hb)))
                0x00000000#32 hred hφ hacc) hc))
            (broadcast ⟨2, ![R, 1]⟩ (Scalar.ofBits (F := Ideal) .f32 εBits))) hb2)
      = biasNormalize (Ideal.ofBits .f32 εBits) x0 x1 := by
  funext j
  obtain ⟨p, q, rfl⟩ : ∃ (p : Fin R) (q : Fin C), j = ix2 p q := ⟨j 0, j 1, eq_ix2 j⟩
  rw [shapeCast_self x0 h0, shapeCast_self x1 h1, divf_apply, addf_apply, broadcastTo_1b_ab_apply,
    Keepdims.broadcastTo_a1_ab_apply, maximumf_apply, broadcast_apply, sqrt_apply, Keepdims.shapeCast_a_a1_apply,
    Keepdims.laneSum_apply, biasNormalize_apply]
  refine congrArg (fun t => Ideal.div _ (max (Ideal.sqrt t) _)) ?_
  exact Finset.sum_congr rfl fun k _ => by rw [mulf_apply, addf_apply, broadcastTo_1b_ab_apply]

/-! ## The forms of the host -/

/-- The host's dot_general of plain dimension numbers. -/
theorem hostDot {N K C : Nat} (d : DotDims ⟨2, ![N, K]⟩ ⟨2, ![K, C]⟩ ⟨2, ![N, C]⟩) (hd : d = DotDims.plain N K C)
    (x : FVec Ideal ⟨2, ![N, K]⟩ .f32) (w : FVec Ideal ⟨2, ![K, C]⟩ .f32) : Host.dotGeneral d none x w = prod x w := by
  subst hd
  funext j
  obtain ⟨p, q, rfl⟩ : ∃ (p : Fin N) (q : Fin C), j = ix2 p q := ⟨j 0, j 1, eq_ix2 j⟩
  exact Cert.PlainDot.dotGeneral_apply none .single x w p q

/-- The host's bias row spread over the rows and added, clamped below by the zero scalar spread over the array. -/
theorem hostBiasRelu {N C : Nat} (hb : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (s : FVec Ideal ⟨2, ![N, C]⟩ .f32) (b : FVec Ideal ⟨2, ![1, C]⟩ .f32) :
    maximumf (addf s (broadcastInDim ⟨2, ![N, C]⟩ ![0, 1] hb b))
        (broadcastInDim ⟨2, ![N, C]⟩ ![] hz (constant (F := Ideal) ⟨0, ![]⟩ .f32 0x00000000#32))
      = biasRelu s b := by
  funext j
  obtain ⟨p, q, rfl⟩ : ∃ (p : Fin N) (q : Fin C), j = ix2 p q := ⟨j 0, j 1, eq_ix2 j⟩
  rw [maximumf_apply, addf_apply, broadcastInDim_oneRow_apply, broadcastInDim_scalar_apply, constant_apply, biasRelu_apply]
  exact congrArg (max _) Ideal.ofBits_zero_f32

/-- A vector spread to an [N, 1] column, at (p, z), is the vector at p. -/
theorem hostColumn_apply {α : Type} {N : Nat} (h : (⟨1, ![N]⟩ : Shape).BroadcastsInDim ⟨2, ![N, 1]⟩ (![0] : Fin 1 → Fin 2))
    (v : (⟨1, ![N]⟩ : Shape).Idx → α) (p : Fin N) (z : Fin 1) :
    broadcastInDim ⟨2, ![N, 1]⟩ ![0] h v (ix2 p z) = v (ix1 p) := by
  refine broadcastInDim_apply ![0] h v (ix2 p z) (ix1 p) fun a => ?_
  match a with
  | ⟨0, _⟩ =>
    show p.val = if N = 1 then 0 else p.val
    split
    · have := p.isLt; omega
    · rfl

/-- An [N, 1] column spread over [N, C], at (p, q), is the column at (p, 0). -/
theorem hostSpread_apply {α : Type} {N C : Nat}
    (h : (⟨2, ![N, 1]⟩ : Shape).BroadcastsInDim ⟨2, ![N, C]⟩ (![0, 1] : Fin 2 → Fin 2))
    (v : (⟨2, ![N, 1]⟩ : Shape).Idx → α) (p : Fin N) (q : Fin C) :
    broadcastInDim ⟨2, ![N, C]⟩ ![0, 1] h v (ix2 p q) = v (ix2 p (0 : Fin 1)) := by
  refine broadcastInDim_apply ![0, 1] h v (ix2 p q) (ix2 p (0 : Fin 1)) fun a => ?_
  match a with
  | ⟨0, _⟩ =>
    show p.val = if N = 1 then 0 else p.val
    split
    · have := p.isLt; omega
    · rfl
  | ⟨1, _⟩ => rfl

/-- The host's sum along the rows of an [N, C] array from an initial scalar, at p. -/
theorem hostRowSum_apply {N C : Nat} (x : FVec Ideal ⟨2, ![N, C]⟩ .f32) (init : (⟨0, ![]⟩ : Shape).Idx → Ideal .f32)
    (hr' : (⟨2, ![N, C]⟩ : Shape).ReducesTo [1] (⟨1, ![N]⟩ : Shape)) (hr : (⟨2, ![N, C]⟩ : Shape).Reduces [1] (⟨1, ![N]⟩ : Shape))
    (hu : 0 < (⟨0, ![]⟩ : Shape).numel) (p : Fin N) :
    Host.reduceAdd x init hr' hu (ix1 p) = init (Shape.Idx.first hu) + ∑ k : Fin C, x (ix2 p k) := by
  rw [hostReduceAdd_apply, Ideal.hostReduceAdd_single hr' hr]
  refine congrArg (_ + ·) ?_
  exact Finset.sum_congr rfl fun k _ => congrArg x (Keepdims.lift_lane hr p k)

/-- The host's square root of a vector, at an index. -/
theorem hostSqrt_apply {s : Shape} {φ : FTy} (a : FVec Ideal s φ) (i : s.Idx) : Host.sqrt a i = Ideal.sqrt (a i) := rfl

/-- The host's row normalisation: h = s + b spread over the rows, the row sums of h · h from the zero scalar made a
    column, its square root clamped below by the scalar ε spread over the column, the column spread over the array,
    dividing h. -/
theorem hostBiasNormalize {N C : Nat} (εBits : BitVec 32)
    (hb : (⟨2, ![1, C]⟩ : Shape).BroadcastsInDim ⟨2, ![N, C]⟩ (![0, 1] : Fin 2 → Fin 2))
    (hr' : (⟨2, ![N, C]⟩ : Shape).ReducesTo [1] (⟨1, ![N]⟩ : Shape)) (hr : (⟨2, ![N, C]⟩ : Shape).Reduces [1] (⟨1, ![N]⟩ : Shape))
    (hu : 0 < (⟨0, ![]⟩ : Shape).numel)
    (hcol : (⟨1, ![N]⟩ : Shape).BroadcastsInDim ⟨2, ![N, 1]⟩ (![0] : Fin 1 → Fin 2))
    (hε : (⟨0, ![]⟩ : Shape).BroadcastsInDim ⟨2, ![N, 1]⟩ (![] : Fin 0 → Fin 2))
    (hsp : (⟨2, ![N, 1]⟩ : Shape).BroadcastsInDim ⟨2, ![N, C]⟩ (![0, 1] : Fin 2 → Fin 2))
    (s : FVec Ideal ⟨2, ![N, C]⟩ .f32) (b : FVec Ideal ⟨2, ![1, C]⟩ .f32) :
    Host.divf (addf s (broadcastInDim ⟨2, ![N, C]⟩ ![0, 1] hb b))
        (broadcastInDim ⟨2, ![N, C]⟩ ![0, 1] hsp
          (maximumf
            (Host.sqrt (broadcastInDim ⟨2, ![N, 1]⟩ ![0] hcol
              (Host.reduceAdd
                (mulf (addf s (broadcastInDim ⟨2, ![N, C]⟩ ![0, 1] hb b)) (addf s (broadcastInDim ⟨2, ![N, C]⟩ ![0, 1] hb b)))
                (constant (F := Ideal) ⟨0, ![]⟩ .f32 0x00000000#32) hr' hu)))
            (broadcastInDim ⟨2, ![N, 1]⟩ ![] hε (constant (F := Ideal) ⟨0, ![]⟩ .f32 εBits))))
      = biasNormalize (Ideal.ofBits .f32 εBits) s b := by
  funext j
  obtain ⟨p, q, rfl⟩ : ∃ (p : Fin N) (q : Fin C), j = ix2 p q := ⟨j 0, j 1, eq_ix2 j⟩
  rw [hostDivf_apply, addf_apply, broadcastInDim_oneRow_apply, hostSpread_apply, maximumf_apply, hostSqrt_apply,
    hostColumn_apply, hostRowSum_apply _ _ hr' hr hu, broadcastInDim_scalar_apply, constant_apply, constant_apply,
    Ideal.ofBits_zero_f32, zero_add, biasNormalize_apply]
  refine congrArg (fun t => Ideal.div _ (max (Ideal.sqrt t) _)) ?_
  exact Finset.sum_congr rfl fun k _ => by rw [mulf_apply, addf_apply, broadcastInDim_oneRow_apply]

/-- A vector reshaped to one row is the vector spread along axis 1 of a one-row array. -/
theorem row_eq {α : Type} {C : Nat} (hc : (⟨1, ![C]⟩ : Shape).ShapeCasts ⟨2, ![1, C]⟩)
    (hb : (⟨1, ![C]⟩ : Shape).BroadcastsInDim ⟨2, ![1, C]⟩ (![1] : Fin 1 → Fin 2)) (b : (⟨1, ![C]⟩ : Shape).Idx → α) :
    shapeCast ⟨2, ![1, C]⟩ b hc = broadcastInDim ⟨2, ![1, C]⟩ ![1] hb b := by
  funext j
  obtain ⟨z, q, rfl⟩ : ∃ (z : Fin 1) (q : Fin C), j = ix2 z q := ⟨j 0, j 1, eq_ix2 j⟩
  have hz : z = 0 := Subsingleton.elim _ _
  subst hz
  rw [shapeCast_a_1a_apply b hc 0 q]
  refine (broadcastInDim_apply ![1] hb b (ix2 (0 : Fin 1) q) (ix1 q) fun a => ?_).symm
  match a with
  | ⟨0, _⟩ =>
    show q.val = if C = 1 then 0 else q.val
    split
    · have := q.isLt; omega
    · rfl

end RowLayers

end
-- ==== Proof.RegionProduct.lean ====
/-
  The first dense stage. The kernel's first region multiplies a [100000, 128] array X by a [128, 16] matrix W, ten
  blocks of 10000 rows at a time: at grid point t its body loads rows 10000·t … 10000·t + 9999 of X and the whole of W,
  forms their matrix product into a zero accumulator (the operands narrowed to bf16, which changes nothing on the extended
  reals) and stores the 10000 × 16 result, which is written back to rows 10000·t … of the output array.
  An entry (n, q) of X · W is ∑ k, X (n, k) · W (k, q): it reads row n of X only. So the block a point writes back is the
  block of rows of the whole product X · W, the ten blocks tile the output array, and the array after the region is X · W.
  Everything is stated for ANY contents V of the buffers at the region's entry.
-/
import proofs.«171253_j53051436040231_1_alg».proof.Proof.Gen.KernelIdeal.Frame
import proofs.«171253_j53051436040231_1_alg».proof.Proof.LibRowLayers
import Idealize.ShloMosaic.Lib.Pipeline.Value

set_option maxRecDepth 16384

noncomputable section

namespace Cert.KernelIdeal.RegionProduct

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores is the matrix product of the two blocks it loads. -/
theorem stored_eq (x0 : Vec Ideal S10000x128 .f32) (x1 : Vec Ideal S128x16 .f32) :
    k0_pay1 x0 x1 = RowLayers.prod (N := 10000) (K := 128) (C := 16) x0 x1 :=
  RowLayers.matmul_tile dot_S10000x128_S128x16_S10000x16_1_0_0_1_n_n rfl none bitsLt_bf16_f32 x0 x1

/-- The block indices at point t: the row block of X and of the output is t, every other block index is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of X · W, X and W the input arrays as the region finds them. -/
theorem flushed_eq (c : Dev nD) (t : Fin cfg0.N) :
    (dat0 V c).flushed 2 t = ((cfg0.win 2).blk t).view.read (Elt Ideal)
      (RowLayers.prod (N := 100000) (K := 128) (C := 16) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  rw [stored_eq]
  obtain ⟨e0, e1, e2, e3, e4, e5⟩ := block_indices t
  have ht : t.val < 10 := by have h := t.isLt; have hN : cfg0.N = 10 := N_0; omega
  funext j
  obtain ⟨p, q, rfl⟩ : ∃ (p : Fin 10000) (q : Fin 16), j = ix2 p q := ⟨j 0, j 1, eq_ix2 j⟩
  have hp : p.val < 10000 := p.isLt
  show RowLayers.prod (N := 10000) (K := 128) (C := 16) (iblk0 V c 0 t) (iblk0 V c 1 t) (ix2 p q)
    = RowLayers.prod (N := 100000) (K := 128) (C := 16) (V c main_arg0) (V c main_arg2) (((cfg0.win 2).blk t).view.emb (ix2 p q))
  -- the output entry's place in the array: row 10000·t + p, column q
  have hout : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 16 + 1 * q.val = q.val; rw [e5]; omega
  -- the block of W is W
  have hw : iblk0 V c 1 t = V c main_arg2 := by
    funext y
    show V c main_arg2 (((cfg0.win 1).blk t).view.emb y) = V c main_arg2 y
    have hy : ((cfg0.win 1).blk t).view.emb y = y := by
      funext a; apply Fin.ext
      match a with
      | ⟨0, _⟩ => show win0_1.index t (0 : Fin 2) * 128 + 1 * (y 0).val = (y 0).val; rw [e2]; omega
      | ⟨1, _⟩ => show win0_1.index t (1 : Fin 2) * 16 + 1 * (y 1).val = (y 1).val; rw [e3]; omega
    rw [hy]
  rw [hout, hw]
  refine RowLayers.prod_rows (R := 10000) (N := 100000) (K := 128) (C := 16) (iblk0 V c 0 t) (V c main_arg0) (V c main_arg2)
    p ⟨t.val * 10000 + p.val, by omega⟩ q fun k => ?_
  -- row p of the block of X is row 10000·t + p of X
  show V c main_arg0 (((cfg0.win 0).blk t).view.emb (ix2 p k)) = V c main_arg0 (ix2 (⟨t.val * 10000 + p.val, by omega⟩ : Fin 100000) k)
  have hx : ((cfg0.win 0).blk t).view.emb (ix2 p k) = ix2 (⟨t.val * 10000 + p.val, by omega⟩ : Fin 100000) k := by
    funext a; apply Fin.ext
    match a with
    | ⟨0, _⟩ => show win0_0.index t (0 : Fin 2) * 10000 + 1 * p.val = t.val * 10000 + p.val; rw [e0]; omega
    | ⟨1, _⟩ => show win0_0.index t (1 : Fin 2) * 128 + 1 * k.val = k.val; rw [e1]; omega
  rw [hx]

/-- An index of the output array is in point t's block iff each coordinate is in the block's range on its axis. -/
theorem mem_block (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v30).slice (win0_2.rect t)).set ↔ _
  rw [View.set_slice_whole, Rect.mem_set_unit]
  exact Iff.rfl

/-- Every index of the output array is in the block of the point its row falls in: row n is in block n / 10000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_2 _, ?_⟩
  obtain ⟨e0, e1, e2, e3, e4, e5⟩ := block_indices ⟨(i 0).val / 10000, by rw [hN]; omega⟩
  rw [mem_block]
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 16 ≤ (i 1).val ∧ (i 1).val < win0_2.index _ (1 : Fin 2) * 16 + 16
    rw [e5]; omega

/-- The output array after the region is X · W. -/
theorem array_eq (c : Dev nD) :
    (dat0 V c).arrAt 2 cfg0.N = RowLayers.prod (N := 100000) (K := 128) (C := 16) (V c main_arg0) (V c main_arg2) :=
  (dat0 V c).arrAt_eq_of_cover 2 _ (fun t _ => flushed_eq V c t) covered

end Cert.KernelIdeal.RegionProduct

end
-- ==== Proof.RegionHidden.lean ====
/-
  The second dense stage. The kernel's second region takes an array A : [100000, 16], a one-row bias b : [1, 16] and a
  matrix W : [16, 16] and forms max(A + b, 0) · W, ten blocks of 10000 rows at a time: at grid point t its body loads rows
  10000·t … 10000·t + 9999 of A, the row b and the whole of W, adds the row to every row of the block, clamps below at
  zero, multiplies by W into a zero accumulator (operands narrowed to bf16: no change on the extended reals) and stores the
  10000 × 16 result, written back to the same rows of the output array.
  Entry (n, q) of max(A + b, 0) · W reads row n of A only, so a point writes back its block of rows of the whole-array
  function, the ten blocks tile the output, and the array after the region is max(A + b, 0) · W.
  Stated for ANY contents V of the buffers at the region's entry.
-/
import proofs.«171253_j53051436040231_1_alg».proof.Proof.Gen.KernelIdeal.Frame
import proofs.«171253_j53051436040231_1_alg».proof.Proof.LibRowLayers
import Idealize.ShloMosaic.Lib.Pipeline.Value

set_option maxRecDepth 16384

noncomputable section

namespace Cert.KernelIdeal.RegionHidden

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function of the stage: max(A + b, 0) · W. -/
def layer {N : Nat} (A : (⟨2, ![N, 16]⟩ : Shape).Idx → EReal) (b : (⟨2, ![1, 16]⟩ : Shape).Idx → EReal)
    (W : (⟨2, ![16, 16]⟩ : Shape).Idx → EReal) : (⟨2, ![N, 16]⟩ : Shape).Idx → EReal :=
  RowLayers.prod (RowLayers.biasRelu A b) W

/-- What the body stores is the stage's function of the three blocks it loads. -/
theorem stored_eq (x0 : Vec Ideal S10000x16 .f32) (x1 : Vec Ideal S1x16 .f32) (x2 : Vec Ideal S16x16 .f32) :
    k1_pay1 x0 x1 x2 = layer (N := 10000) x0 x1 x2 := by
  have h1 := RowLayers.biasRelu_tile (R := 10000) (C := 16) x0 x1 shapeCasts_S10000x16_S10000x16 shapeCasts_S1x16_S1x16 broadcasts_S1x16_S10000x16
  have h2 := RowLayers.matmul_tile (R := 10000) (K := 16) (C := 16) dot_S10000x16_S16x16_S10000x16_1_0_0_1_n_n rfl none bitsLt_bf16_f32
    (RowLayers.biasRelu x0 x1) x2
  unfold layer
  rw [← h2, ← h1]
  rfl

/-- A block of rows of the stage is the stage of the block of rows. -/
theorem layer_rows {R N : Nat} (Ab : (⟨2, ![R, 16]⟩ : Shape).Idx → EReal) (A : (⟨2, ![N, 16]⟩ : Shape).Idx → EReal)
    (b : (⟨2, ![1, 16]⟩ : Shape).Idx → EReal) (W : (⟨2, ![16, 16]⟩ : Shape).Idx → EReal) (p : Fin R) (n : Fin N) (q : Fin 16)
    (hA : ∀ k : Fin 16, Ab (ix2 p k) = A (ix2 n k)) : layer Ab b W (ix2 p q) = layer A b W (ix2 n q) :=
  RowLayers.prod_rows _ _ W p n q fun k => RowLayers.biasRelu_rows Ab A b p n k hA

/-- The block indices at point t: the row block of A and of the output is t, every other block index is 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the stage's function of the input arrays as the region finds them. -/
theorem flushed_eq (c : Dev nD) (t : Fin cfg1.N) :
    (dat1 V c).flushed 3 t = ((cfg1.win 3).blk t).view.read (Elt Ideal)
      (layer (N := 100000) (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x16) hz]
  rw [stored_eq]
  obtain ⟨e0, e1, e2, e3, e4, e5, e6, e7⟩ := block_indices t
  have ht : t.val < 10 := by have h := t.isLt; have hN : cfg1.N = 10 := N_1; omega
  funext j
  obtain ⟨p, q, rfl⟩ : ∃ (p : Fin 10000) (q : Fin 16), j = ix2 p q := ⟨j 0, j 1, eq_ix2 j⟩
  have hp : p.val < 10000 := p.isLt
  show layer (N := 10000) (iblk1 V c 0 t) (iblk1 V c 1 t) (iblk1 V c 2 t) (ix2 p q)
    = layer (N := 100000) (V c main_v43) (V c main_v44) (V c main_arg4) (((cfg1.win 3).blk t).view.emb (ix2 p q))
  have hout : ((cfg1.win 3).blk t).view.emb (ix2 p q) = ix2 (⟨t.val * 10000 + p.val, by omega⟩ : Fin 100000) q := by
    funext a; apply Fin.ext
    match a with
    | ⟨0, _⟩ => show win1_3.index t (0 : Fin 2) * 10000 + 1 * p.val = t.val * 10000 + p.val; rw [e6]; omega
    | ⟨1, _⟩ => show win1_3.index t (1 : Fin 2) * 16 + 1 * q.val = q.val; rw [e7]; omega
  have hb : iblk1 V c 1 t = V c main_v44 := by
    funext y
    show V c main_v44 (((cfg1.win 1).blk t).view.emb y) = V c main_v44 y
    have hy : ((cfg1.win 1).blk t).view.emb y = y := by
      funext a; apply Fin.ext
      match a with
      | ⟨0, _⟩ => show win1_1.index t (0 : Fin 2) * 1 + 1 * (y 0).val = (y 0).val; rw [e2]; omega
      | ⟨1, _⟩ => show win1_1.index t (1 : Fin 2) * 16 + 1 * (y 1).val = (y 1).val; rw [e3]; omega
    rw [hy]
  have hw : iblk1 V c 2 t = V c main_arg4 := by
    funext y
    show V c main_arg4 (((cfg1.win 2).blk t).view.emb y) = V c main_arg4 y
    have hy : ((cfg1.win 2).blk t).view.emb y = y := by
      funext a; apply Fin.ext
      match a with
      | ⟨0, _⟩ => show win1_2.index t (0 : Fin 2) * 16 + 1 * (y 0).val = (y 0).val; rw [e4]; omega
      | ⟨1, _⟩ => show win1_2.index t (1 : Fin 2) * 16 + 1 * (y 1).val = (y 1).val; rw [e5]; omega
    rw [hy]
  rw [hout, hb, hw]
  refine layer_rows (R := 10000) (N := 100000) (iblk1 V c 0 t) (V c main_v43) (V c main_v44) (V c main_arg4)
    p ⟨t.val * 10000 + p.val, by omega⟩ q fun k => ?_
  show V c main_v43 (((cfg1.win 0).blk t).view.emb (ix2 p k)) = V c main_v43 (ix2 (⟨t.val * 10000 + p.val, by omega⟩ : Fin 100000) k)
  have hx : ((cfg1.win 0).blk t).view.emb (ix2 p k) = ix2 (⟨t.val * 10000 + p.val, by omega⟩ : Fin 100000) k := by
    funext a; apply Fin.ext
    match a with
    | ⟨0, _⟩ => show win1_0.index t (0 : Fin 2) * 10000 + 1 * p.val = t.val * 10000 + p.val; rw [e0]; omega
    | ⟨1, _⟩ => show win1_0.index t (1 : Fin 2) * 16 + 1 * k.val = k.val; rw [e1]; omega
  rw [hx]

/-- An index of the output array is in point t's block iff each coordinate is in the block's range on its axis. -/
theorem mem_block (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v45).slice (win1_3.rect t)).set ↔ _
  rw [View.set_slice_whole, Rect.mem_set_unit]
  exact Iff.rfl

/-- Every index of the output array is in the block of the point its row falls in: row n is in block n / 10000. -/
theorem covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  refine ⟨⟨(i 0).val / 10000, by rw [hN]; omega⟩, flush1_3 _, ?_⟩
  obtain ⟨e0, e1, e2, e3, e4, e5, e6, e7⟩ := block_indices ⟨(i 0).val / 10000, by rw [hN]; omega⟩
  rw [mem_block]
  intro a
  match a with
  | ⟨0, _⟩ =>
    show win1_3.index _ (0 : Fin 2) * 10000 ≤ (i 0).val ∧ (i 0).val < win1_3.index _ (0 : Fin 2) * 10000 + 10000
    rw [e6]; show (i 0).val / 10000 * 10000 ≤ (i 0).val ∧ (i 0).val < (i 0).val / 10000 * 10000 + 10000; omega
  | ⟨1, _⟩ =>
    show win1_3.index _ (1 : Fin 2) * 16 ≤ (i 1).val ∧ (i 1).val < win1_3.index _ (1 : Fin 2) * 16 + 16
    rw [e7]; omega

/-- The output array after the region is max(A + b, 0) · W. -/
theorem array_eq (c : Dev nD) :
    (dat1 V c).arrAt 3 cfg1.N = layer (N := 100000) (V c main_v43) (V c main_v44) (V c main_arg4) :=
  (dat1 V c).arrAt_eq_of_cover 3 _ (fun t _ => flushed_eq V c t) covered

end Cert.KernelIdeal.RegionHidden

end
-- ==== Proof.LibRowBias.lean ====
/-
  A one-row bias added to every row of an array, on the extended reals, for any extents.

  For an array s : [N, C] and a one-row array b : [1, C], `biasAdd s b` has entry (i, j) equal to s (i, j) + b (0, j).
  A kernel tile forms it by broadcasting the row down the tile and adding; the host by spreading the row over the rows
  with broadcast_in_dim and adding. Each form equals the function as a whole array. An entry depends on its own row of s
  only, so a block of rows of `biasAdd s b` is `biasAdd` of that block of rows. No entry is assumed finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace RowBias

open Idealize.ShloMosaic Idealize.ShloMosaic.ValueIdx

/-- A one-row bias added to every row. -/
def biasAdd {N C : Nat} (s : (⟨2, ![N, C]⟩ : Shape).Idx → EReal) (b : (⟨2, ![1, C]⟩ : Shape).Idx → EReal) :
    (⟨2, ![N, C]⟩ : Shape).Idx → EReal :=
  fun i => s i + b (ix2 (0 : Fin 1) (i 1))

theorem biasAdd_apply {N C : Nat} (s : (⟨2, ![N, C]⟩ : Shape).Idx → EReal) (b : (⟨2, ![1, C]⟩ : Shape).Idx → EReal)
    (p : Fin N) (q : Fin C) : biasAdd s b (ix2 p q) = s (ix2 p q) + b (ix2 (0 : Fin 1) q) := rfl

/-- If the block sb holds, at (p, q), the array's entry (n, q), then the biased block at (p, q) is the biased array
    at (n, q). -/
theorem biasAdd_rows {R N C : Nat} (sb : (⟨2, ![R, C]⟩ : Shape).Idx → EReal) (s : (⟨2, ![N, C]⟩ : Shape).Idx → EReal)
    (b : (⟨2, ![1, C]⟩ : Shape).Idx → EReal) (p : Fin R) (n : Fin N) (q : Fin C)
    (hs : sb (ix2 p q) = s (ix2 n q)) : biasAdd sb b (ix2 p q) = biasAdd s b (ix2 n q) := by
  rw [biasAdd_apply, biasAdd_apply, hs]

/-- The form of a kernel tile: the row, cast to its own shape, broadcast down the tile and added. -/
theorem biasAdd_tile {R C : Nat} (y : FVec Ideal ⟨2, ![R, C]⟩ .f32) (x1 : FVec Ideal ⟨2, ![1, C]⟩ .f32)
    (h1 : (⟨2, ![1, C]⟩ : Shape).ShapeCasts ⟨2, ![1, C]⟩) (hb : (⟨2, ![1, C]⟩ : Shape).Broadcasts ⟨2, ![R, C]⟩) :
    addf y (broadcastTo ⟨2, ![R, C]⟩ (shapeCast ⟨2, ![1, C]⟩ x1 h1) hb) = biasAdd y x1 := by
  funext j
  obtain ⟨p, q, rfl⟩ : ∃ (p : Fin R) (q : Fin C), j = ix2 p q := ⟨j 0, j 1, eq_ix2 j⟩
  rw [shapeCast_self x1 h1, addf_apply, broadcastTo_1b_ab_apply, biasAdd_apply]

/-- The form of the host: the row spread over the rows by broadcast_in_dim and added. -/
theorem hostBiasAdd {N C : Nat} (hb : (⟨2, ![1, C]⟩ : Shape).BroadcastsInDim ⟨2, ![N, C]⟩ (![0, 1] : Fin 2 → Fin 2))
    (s : FVec Ideal ⟨2, ![N, C]⟩ .f32) (b : FVec Ideal ⟨2, ![1, C]⟩ .f32) :
    addf s (broadcastInDim ⟨2, ![N, C]⟩ ![0, 1] hb b) = biasAdd s b := by
  funext j
  obtain ⟨p, q, rfl⟩ : ∃ (p : Fin N) (q : Fin C), j = ix2 p q := ⟨j 0, j 1, eq_ix2 j⟩
  rw [addf_apply, broadcastInDim_oneRow_apply, biasAdd_apply]

end RowBias

end
-- ==== Proof.RegionLogits.lean ====
/-
  The third dense stage. The kernel's third region takes an array A : [100000, 16], a one-row bias b : [1, 16], a matrix
  W : [16, 2] and a second one-row bias d : [1, 2] and forms max(A + b, 0) · W + d, ten blocks of 10000 rows at a time: at
  grid point t its body loads rows 10000·t … 10000·t + 9999 of A, the row b, the whole of W and the row d, adds b to every
  row of the block, clamps below at zero, multiplies by W into a zero accumulator (operands narrowed to bf16: no change on
  the extended reals), adds d to every row and stores the 10000 × 2 result, written back to the same rows of the output.
  Entry (n, q) of max(A + b, 0) · W + d reads row n of A only, so a point writes back its block of rows of the
  whole-array function, the ten blocks tile the output, and the array after the region is max(A + b, 0) · W + d.
  Stated for ANY contents V of the buffers at the region's entry.
-/
import proofs.«171253_j53051436040231_1_alg».proof.Proof.Gen.KernelIdeal.Frame
import proofs.«171253_j53051436040231_1_alg».proof.Proof.LibRowLayers
import proofs.«171253_j53051436040231_1_alg».proof.Proof.LibRowBias
import Idealize.ShloMosaic.Lib.Pipeline.Value

set_option maxRecDepth 16384

noncomputable section

namespace Cert.KernelIdeal.RegionLogits

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function of the stage: max(A + b, 0) · W + d. -/
def layer {N : Nat} (A : (⟨2, ![N, 16]⟩ : Shape).Idx → EReal) (b : (⟨2, ![1, 16]⟩ : Shape).Idx → EReal)
    (W : (⟨2, ![16, 2]⟩ : Shape).Idx → EReal) (d : (⟨2, ![1, 2]⟩ : Shape).Idx → EReal) : (⟨2, ![N, 2]⟩ : Shape).Idx → EReal :=
  RowBias.biasAdd (RowLayers.prod (RowLayers.biasRelu A b) W) d

/-- What the body stores is the stage's function of the four blocks it loads. -/
theorem stored_eq (x0 : Vec Ideal S10000x16 .f32) (x1 : Vec Ideal S1x16 .f32) (x2 : Vec Ideal S16x2 .f32) (x3 : Vec Ideal S1x2 .f32) :
    k2_pay1 x0 x1 x2 x3 = layer (N := 10000) x0 x1 x2 x3 := by
  have h1 := RowLayers.biasRelu_tile (R := 10000) (C := 16) x0 x1 shapeCasts_S10000x16_S10000x16 shapeCasts_S1x16_S1x16 broadcasts_S1x16_S10000x16
  have h2 := RowLayers.matmul_tile (R := 10000) (K := 16) (C := 2) dot_S10000x16_S16x2_S10000x2_1_0_0_1_n_n rfl none bitsLt_bf16_f32
    (RowLayers.biasRelu x0 x1) x2
  have h3 := RowBias.biasAdd_tile (R := 10000) (C := 2) (RowLayers.prod (RowLayers.biasRelu x0 x1) x2) x3 shapeCasts_S1x2_S1x2 broadcasts_S1x2_S10000x2
  unfold layer
  rw [← h3, ← h2, ← h1]
  rfl

/-- A block of rows of the stage is the stage of the block of rows. -/
theorem layer_rows {R N : Nat} (Ab : (⟨2, ![R, 16]⟩ : Shape).Idx → EReal) (A : (⟨2, ![N, 16]⟩ : Shape).Idx → EReal)
    (b : (⟨2, ![1, 16]⟩ : Shape).Idx → EReal) (W : (⟨2, ![16, 2]⟩ : Shape).Idx → EReal) (d : (⟨2, ![1, 2]⟩ : Shape).Idx → EReal)
    (p : Fin R) (n : Fin N) (q : Fin 2)
    (hA : ∀ k : Fin 16, Ab (ix2 p k) = A (ix2 n k)) : layer Ab b W d (ix2 p q) = layer A b W d (ix2 n q) :=
  RowBias.biasAdd_rows _ _ d p n q
    (RowLayers.prod_rows _ _ W p n q fun k => RowLayers.biasRelu_rows Ab A b p n k hA)

/-- The block indices at point t: the row block of A and of the output is t, every other block index is 0. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the stage's function of the input arrays as the region finds them. -/
theorem flushed_eq (c : Dev nD) (t : Fin cfg2.N) :
    (dat2 V c).flushed 4 t = ((cfg2.win 4).blk t).view.read (Elt Ideal)
      (layer (N := 100000) (V c main_v58) (V c main_v59) (V c main_arg6) (V c main_v60)) := by
  show (cfg2.win 4).cut (grid2.coords t) ((dat2 V c).after 4 t) = _
  rw [after2_4]
  unfold out2_4
  rw [View.canon_unit_zero hz]
  simp only [View.ld_unit_zero (S := S10000x16) hz, View.ld_unit_zero (S := S1x16) hz, View.ld_unit_zero (S := S16x2) hz,
    View.ld_unit_zero (S := S1x2) hz]
  rw [stored_eq]
  obtain ⟨e0, e1, e2, e3, e4, e5, e6, e7, e8, e9⟩ := block_indices t
  have ht : t.val < 10 := by have h := t.isLt; have hN : cfg2.N = 10 := N_2; omega
  funext j
  obtain ⟨p, q, rfl⟩ : ∃ (p : Fin 10000) (q : Fin 2), j = ix2 p q := ⟨j 0, j 1, eq_ix2 j⟩
  have hp : p.val < 10000 := p.isLt
  show layer (N := 10000) (iblk2 V c 0 t) (iblk2 V c 1 t) (iblk2 V c 2 t) (iblk2 V c 3 t) (ix2 p q)
    = layer (N := 100000) (V c main_v58) (V c main_v59) (V c main_arg6) (V c main_v60) (((cfg2.win 4).blk t).view.emb (ix2 p q))
  have hout : ((cfg2.win 4).blk t).view.emb (ix2 p q) = ix2 (⟨t.val * 10000 + p.val, by omega⟩ : Fin 100000) q := by
    funext a; apply Fin.ext
    match a with
    | ⟨0, _⟩ => show win2_4.index t (0 : Fin 2) * 10000 + 1 * p.val = t.val * 10000 + p.val; rw [e8]; omega
    | ⟨1, _⟩ => show win2_4.index t (1 : Fin 2) * 2 + 1 * q.val = q.val; rw [e9]; omega
  have hb : iblk2 V c 1 t = V c main_v59 := by
    funext y
    show V c main_v59 (((cfg2.win 1).blk t).view.emb y) = V c main_v59 y
    have hy : ((cfg2.win 1).blk t).view.emb y = y := by
      funext a; apply Fin.ext
      match a with
      | ⟨0, _⟩ => show win2_1.index t (0 : Fin 2) * 1 + 1 * (y 0).val = (y 0).val; rw [e2]; omega
      | ⟨1, _⟩ => show win2_1.index t (1 : Fin 2) * 16 + 1 * (y 1).val = (y 1).val; rw [e3]; omega
    rw [hy]
  have hw : iblk2 V c 2 t = V c main_arg6 := by
    funext y
    show V c main_arg6 (((cfg2.win 2).blk t).view.emb y) = V c main_arg6 y
    have hy : ((cfg2.win 2).blk t).view.emb y = y := by
      funext a; apply Fin.ext
      match a with
      | ⟨0, _⟩ => show win2_2.index t (0 : Fin 2) * 16 + 1 * (y 0).val = (y 0).val; rw [e4]; omega
      | ⟨1, _⟩ => show win2_2.index t (1 : Fin 2) * 2 + 1 * (y 1).val = (y 1).val; rw [e5]; omega
    rw [hy]
  have hd : iblk2 V c 3 t = V c main_v60 := by
    funext y
    show V c main_v60 (((cfg2.win 3).blk t).view.emb y) = V c main_v60 y
    have hy : ((cfg2.win 3).blk t).view.emb y = y := by
      funext a; apply Fin.ext
      match a with
      | ⟨0, _⟩ => show win2_3.index t (0 : Fin 2) * 1 + 1 * (y 0).val = (y 0).val; rw [e6]; omega
      | ⟨1, _⟩ => show win2_3.index t (1 : Fin 2) * 2 + 1 * (y 1).val = (y 1).val; rw [e7]; omega
    rw [hy]
  rw [hout, hb, hw, hd]
  refine layer_rows (R := 10000) (N := 100000) (iblk2 V c 0 t) (V c main_v58) (V c main_v59) (V c main_arg6) (V c main_v60)
    p ⟨t.val * 10000 + p.val, by omega⟩ q fun k => ?_
  show V c main_v58 (((cfg2.win 0).blk t).view.emb (ix2 p k)) = V c main_v58 (ix2 (⟨t.val * 10000 + p.val, by omega⟩ : Fin 100000) k)
  have hx : ((cfg2.win 0).blk t).view.emb (ix2 p k) = ix2 (⟨t.val * 10000 + p.val, by omega⟩ : Fin 100000) k := by
    funext a; apply Fin.ext
    match a with
    | ⟨0, _⟩ => show win2_0.index t (0 : Fin 2) * 10000 + 1 * p.val = t.val * 10000 + p.val; rw [e0]; omega
    | ⟨1, _⟩ => show win2_0.index t (1 : Fin 2) * 16 + 1 * k.val = k.val; rw [e1]; omega
  rw [hx]

/-- An index of the output array is in point t's block iff each coordinate is in the block's range on its axis. -/
theorem mem_block (t : Fin cfg2.N) (i : S100000x2.Idx) :
    i ∈ ((cfg2.win 4).blk t).view.set ↔ ∀ a : Fin 2, win2_4.index t a * S10000x2.size a ≤ (i a).val
      ∧ (i a).val < win2_4.index t a * S10000x2.size a + S10000x2.size a := by
  show i ∈ ((View.whole main_v61).slice (win2_4.rect t)).set ↔ _
  rw [View.set_slice_whole, Rect.mem_set_unit]
  exact Iff.rfl

/-- Every index of the output array is in the block of the point its row falls in: row n is in block n / 10000. -/
theorem covered (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  have hN : cfg2.N = 10 := N_2
  refine ⟨⟨(i 0).val / 10000, by rw [hN]; omega⟩, flush2_4 _, ?_⟩
  obtain ⟨e0, e1, e2, e3, e4, e5, e6, e7, e8, e9⟩ := block_indices ⟨(i 0).val / 10000, by rw [hN]; omega⟩
  rw [mem_block]
  intro a
  match a with
  | ⟨0, _⟩ =>
    show win2_4.index _ (0 : Fin 2) * 10000 ≤ (i 0).val ∧ (i 0).val < win2_4.index _ (0 : Fin 2) * 10000 + 10000
    rw [e8]; show (i 0).val / 10000 * 10000 ≤ (i 0).val ∧ (i 0).val < (i 0).val / 10000 * 10000 + 10000; omega
  | ⟨1, _⟩ =>
    show win2_4.index _ (1 : Fin 2) * 2 ≤ (i 1).val ∧ (i 1).val < win2_4.index _ (1 : Fin 2) * 2 + 2
    rw [e9]; omega

/-- The output array after the region is max(A + b, 0) · W + d. -/
theorem array_eq (c : Dev nD) :
    (dat2 V c).arrAt 4 cfg2.N = layer (N := 100000) (V c main_v58) (V c main_v59) (V c main_arg6) (V c main_v60) :=
  (dat2 V c).arrAt_eq_of_cover 4 _ (fun t _ => flushed_eq V c t) covered

end Cert.KernelIdeal.RegionLogits

end
-- ==== Proof.GraphStages.lean ====
/-
  The graph part of a two-layer graph convolution, as functions of whole arrays.

  The graph has 100000 nodes and 3200000 edges, given as a [2, 3200000] array of node numbers: row 0 the source and row 1
  the target of every edge. Every node also gets a self loop, so there are 3300000 edges in all:
    • `srcIdx e`, `dstIdx e` : row 0 (the sources), row 1 (the targets) of the edge array, each followed by
      0, 1, …, 99999 (the self loops);
    • `wrapIdx i`       : a negative node number counts from the end, i + 100000;
    • `degree dst`      : per node, the number of edges that end in it, as a sum of ones scattered to the targets;
    • `invSqrtDeg dst`  : per node, degree^(-1/2) where the degree is positive and 0 elsewhere;
    • `edgeCoef src dst`: per edge, invSqrtDeg at its source times invSqrtDeg at its target;
    • `propagate src dst coef h` : for a feature array h : [100000, 16], the rows of h gathered at the edges' sources, each
      scaled by its edge's coefficient, and summed into the edges' targets, starting from zero.
  These are the operations both programs apply, in this order and with these dimension numbers; nothing is proved about
  them here: they are named so that both programs' results can be stated over the same functions.
-/
import proofs.«171253_j53051436040231_1_alg».proof.Proof.Gen.ReferenceIdeal

set_option maxRecDepth 16384

noncomputable section

namespace Cert.ReferenceIdeal.Graph

open Cert.ReferenceIdeal Cert.ReferenceIdeal.Gen Idealize.ShloMosaic

variable {F : FTy → Type} [FloatOps F]

/-- The edges' sources: row 0 of the edge array followed by the self loops 0 … 99999. -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' targets: row 1 of the edge array followed by the self loops 0 … 99999. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end. -/
def wrapIdx (i : (⟨S3300000, .i32⟩ : BufTy).Contents (Elt F)) : (⟨S3300000, .i32⟩ : BufTy).Contents (Elt F) :=
  select (cmpi .slt i (broadcastInDim S3300000 ![] bcast_S_S3300000 (constantI S_ 32 0#32))) (addi i (broadcastInDim S3300000 ![] bcast_S_S3300000 (constantI S_ 32 100000#32))) i

/-- The number of edges ending in each node: ones summed into the targets, from zero. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- degree^(-1/2) where the degree is positive, 0 elsewhere. -/
def invSqrtDeg (dst : (⟨S3300000, .i32⟩ : BufTy).Contents (Elt F)) : (⟨S100000, .f32⟩ : BufTy).Contents (Elt F) :=
  select (cmpf (F := F) .ogt (degree (F := F) dst) (broadcastInDim S100000 ![] bcast_S_S100000 (constant S_ .f32 0x00000000#32))) (Host.rsqrt (degree (F := F) dst)) (broadcastInDim S100000 ![] bcast_S_S100000 (id (constant S_ .f32 0x00000000#32)))

/-- Per edge: invSqrtDeg at the source times invSqrtDeg at the target. -/
def edgeCoef (src dst : (⟨S3300000, .i32⟩ : BufTy).Contents (Elt F)) : (⟨S3300000, .f32⟩ : BufTy).Contents (Elt F) :=
  mulf (Host.gather gather_S100000_S3300000x1_S3300000_n_0_n_n_0_1_1 (invSqrtDeg (F := F) dst) (broadcastInDim S3300000x1 ![0] bcast_S3300000_S3300000x1_0 (wrapIdx (F := F) src))) (Host.gather gather_S100000_S3300000x1_S3300000_n_0_n_n_0_1_1 (invSqrtDeg (F := F) dst) (broadcastInDim S3300000x1 ![0] bcast_S3300000_S3300000x1_0 (wrapIdx (F := F) dst)))

/-- The rows of h at the edges' sources, scaled by the edges' coefficients, summed into the edges' targets. -/
def propagate (src dst : (⟨S3300000, .i32⟩ : BufTy).Contents (Elt F)) (coef : (⟨S3300000, .f32⟩ : BufTy).Contents (Elt F)) (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h (broadcastInDim S3300000x1 ![0] bcast_S3300000_S3300000x1_0 (wrapIdx (F := F) src))) (broadcastInDim S3300000x16 ![0, 1] bcast_S3300000x1_S3300000x16_0_1 (broadcastInDim S3300000x1 ![0] bcast_S3300000_S3300000x1_0 coef)))

end Cert.ReferenceIdeal.Graph

end
-- ==== Proof.Network.lean ====
/-
  A two-layer graph convolution with a linear classifier, on the extended reals, as one function of its eight inputs.

  With `aggregate e h` the message passing step of the graph e (rows of h gathered at the edges' sources, scaled by the
  edges' coefficients deg^(-1/2)(source) · deg^(-1/2)(target), summed into the edges' targets), the network is
      logits = max(aggregate (max(aggregate (x · W1) + b1, 0) · W2) + b2, 0) · Wc + bc,
  every bias a vector added to every row. `network` states it over the row-wise layers (a product, a bias followed by a
  clamp at zero, a bias); `hostNetwork` states it as the host spells those layers (dot_general; the bias vector made a row
  and spread over the rows, then added, then the maximum with a zero array; an add of the spread row). The two are
  equal, layer by layer, and no entry needs to be finite for that.
-/
import proofs.«171253_j53051436040231_1_alg».proof.Proof.GraphStages
import proofs.«171253_j53051436040231_1_alg».proof.Proof.LibRowLayers
import proofs.«171253_j53051436040231_1_alg».proof.Proof.LibRowBias

set_option maxRecDepth 16384

noncomputable section

namespace Cert.ReferenceIdeal.Network

open Cert.ReferenceIdeal Cert.ReferenceIdeal.Gen Cert.ReferenceIdeal.Graph Idealize.ShloMosaic

/-- The message passing step of the graph e, with the graph's own coefficients. -/
def aggregate (e : IVec S2x3200000 32) (h : FVec Ideal S100000x16 .f32) : FVec Ideal S100000x16 .f32 :=
  propagate (F := Ideal) (srcIdx (F := Ideal) e) (dstIdx (F := Ideal) e)
    (edgeCoef (F := Ideal) (srcIdx (F := Ideal) e) (dstIdx (F := Ideal) e)) h

/-- A bias vector as a one-row array. -/
def row16 (b : FVec Ideal S16 .f32) : FVec Ideal S1x16 .f32 := broadcastInDim S1x16 ![1] bcast_S16_S1x16_1 b
def row2 (b : FVec Ideal S2 .f32) : FVec Ideal S1x2 .f32 := broadcastInDim S1x2 ![1] bcast_S2_S1x2_1 b

/-- The network over the row-wise layers. -/
def network (x : FVec Ideal S100000x128 .f32) (e : IVec S2x3200000 32) (W1 : FVec Ideal S128x16 .f32)
    (b1 : FVec Ideal S16 .f32) (W2 : FVec Ideal S16x16 .f32) (b2 : FVec Ideal S16 .f32)
    (Wc : FVec Ideal S16x2 .f32) (bc : FVec Ideal S2 .f32) : FVec Ideal S100000x2 .f32 :=
  RowBias.biasAdd (N := 100000) (C := 2)
    (RowLayers.prod (N := 100000) (K := 16) (C := 2)
      (RowLayers.biasRelu (N := 100000) (C := 16)
        (aggregate e (RowLayers.prod (N := 100000) (K := 16) (C := 16)
          (RowLayers.biasRelu (N := 100000) (C := 16)
            (aggregate e (RowLayers.prod (N := 100000) (K := 128) (C := 16) x W1)) (row16 b1)) W2))
        (row16 b2)) Wc)
    (row2 bc)

/-- The network as the host spells its layers. -/
def hostNetwork (x : FVec Ideal S100000x128 .f32) (e : IVec S2x3200000 32) (W1 : FVec Ideal S128x16 .f32)
    (b1 : FVec Ideal S16 .f32) (W2 : FVec Ideal S16x16 .f32) (b2 : FVec Ideal S16 .f32)
    (Wc : FVec Ideal S16x2 .f32) (bc : FVec Ideal S2 .f32) : FVec Ideal S100000x2 .f32 :=
  addf (F := Ideal) (Host.dotGeneral (F := Ideal) dot_S100000x16_S16x2_S100000x2_1_0_0_1_n_n none
      (maximumf (F := Ideal) (addf (F := Ideal) (aggregate e (Host.dotGeneral (F := Ideal) dot_S100000x16_S16x16_S100000x16_1_0_0_1_n_n none
            (maximumf (F := Ideal) (addf (F := Ideal) (aggregate e (Host.dotGeneral (F := Ideal) dot_S100000x128_S128x16_S100000x16_1_0_0_1_n_n none x W1))
                (broadcastInDim S100000x16 ![0, 1] bcast_S1x16_S100000x16_0_1 (row16 b1)))
              (broadcastInDim S100000x16 ![] bcast_S_S100000x16 (constant (F := Ideal) S_ .f32 0x00000000#32))) W2))
          (broadcastInDim S100000x16 ![0, 1] bcast_S1x16_S100000x16_0_1 (row16 b2)))
        (broadcastInDim S100000x16 ![] bcast_S_S100000x16 (constant (F := Ideal) S_ .f32 0x00000000#32))) Wc)
    (broadcastInDim S100000x2 ![0, 1] bcast_S1x2_S100000x2_0_1 (row2 bc))

/-- The host's spelling is the network: each dot_general is the product, each add-then-maximum the bias with the clamp,
    the last add the bias. -/
theorem hostNetwork_eq (x : FVec Ideal S100000x128 .f32) (e : IVec S2x3200000 32) (W1 : FVec Ideal S128x16 .f32)
    (b1 : FVec Ideal S16 .f32) (W2 : FVec Ideal S16x16 .f32) (b2 : FVec Ideal S16 .f32)
    (Wc : FVec Ideal S16x2 .f32) (bc : FVec Ideal S2 .f32) :
    hostNetwork x e W1 b1 W2 b2 Wc bc = network x e W1 b1 W2 b2 Wc bc := by
  unfold hostNetwork network
  rw [RowLayers.hostDot (N := 100000) (K := 128) (C := 16) dot_S100000x128_S128x16_S100000x16_1_0_0_1_n_n rfl x W1]
  rw [RowLayers.hostBiasRelu (N := 100000) (C := 16) bcast_S1x16_S100000x16_0_1 bcast_S_S100000x16 _ (row16 b1)]
  rw [RowLayers.hostDot (N := 100000) (K := 16) (C := 16) dot_S100000x16_S16x16_S100000x16_1_0_0_1_n_n rfl _ W2]
  rw [RowLayers.hostBiasRelu (N := 100000) (C := 16) bcast_S1x16_S100000x16_0_1 bcast_S_S100000x16 _ (row16 b2)]
  rw [RowLayers.hostDot (N := 100000) (K := 16) (C := 2) dot_S100000x16_S16x2_S100000x2_1_0_0_1_n_n rfl _ Wc]
  rw [RowBias.hostBiasAdd (N := 100000) (C := 2) bcast_S1x2_S100000x2_0_1 _ (row2 bc)]

end Cert.ReferenceIdeal.Network

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.KernelValue.lean ====
/-
  What the idealized kernel program computes: its result buffer ends holding the network of the launch contents.

  The program is eight segments. Three stretches of host operations build, from the edge array, the edges' endpoints with
  the self loops appended, the per-node deg^(-1/2) and the per-edge coefficients. The first region forms x · W1. A host
  stretch gathers its rows at the sources, scales them and sums them into the targets, and makes the bias b1 a row. The
  second region forms max(· + b1, 0) · W2. A stretch does the same message passing on that and makes b2 and bc rows. The
  third region forms max(· + b2, 0) · Wc + bc, into the result buffer.
  The endpoints, the coefficients and the arguments are written once (or never) and read later: no later segment writes
  them, so they are carried unchanged through every boundary (`Carried`). With that, each region's input arrays are read
  off the stretch before it, each region's output array is its stage's function of them, and the last one is the network.
-/
import proofs.«171253_j53051436040231_1_alg».proof.Proof.Gen.KernelIdeal.Frame
import proofs.«171253_j53051436040231_1_alg».proof.Proof.RegionProduct
import proofs.«171253_j53051436040231_1_alg».proof.Proof.RegionHidden
import proofs.«171253_j53051436040231_1_alg».proof.Proof.RegionLogits
import proofs.«171253_j53051436040231_1_alg».proof.Proof.Network
import proofs.«171253_j53051436040231_1_alg».proof.Proof.LibHostRead
import proofs.«171253_j53051436040231_1_alg».proof.Proof.LibKeep

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal.Graph Cert.ReferenceIdeal.Network

variable (m : (ℓ : Loc nD τ sig) → Buf (Elt Ideal) ℓ) (ρ : Dev nD → PrngReg) (c : Dev nD)

/-- The edges' sources and targets (self loops appended) and coefficients, of the edge array as launched. -/
abbrev src := srcIdx (F := Ideal) (m ((c.tc : Thread nD τ).loc main_arg1))
abbrev dst := dstIdx (F := Ideal) (m ((c.tc : Thread nD τ).loc main_arg1))
abbrev coef := edgeCoef (F := Ideal) (src m c) (dst m c)

/-- What every segment from the first region on finds unchanged: the endpoints, the coefficients, five arguments. -/
def Carried (W : Valuation τ sig (Elt Ideal)) : Prop :=
  W (Proc.devRef .tc main_v3) = src m c ∧ W (Proc.devRef .tc main_v6) = dst m c ∧ W (Proc.devRef .tc main_v29) = coef m c
  ∧ W (Proc.devRef .tc main_arg3) = (m ((c.tc : Thread nD τ).loc main_arg3)) ∧ W (Proc.devRef .tc main_arg4) = (m ((c.tc : Thread nD τ).loc main_arg4))
  ∧ W (Proc.devRef .tc main_arg5) = (m ((c.tc : Thread nD τ).loc main_arg5)) ∧ W (Proc.devRef .tc main_arg6) = (m ((c.tc : Thread nD τ).loc main_arg6))
  ∧ W (Proc.devRef .tc main_arg7) = (m ((c.tc : Thread nD τ).loc main_arg7))

/-! ## The first region's entry: the three opening stretches read from the launch memory -/

theorem entry_src : W3 m ρ c (Proc.devRef .tc main_v3) = src m c := by
  dsimp only [W3, W2, W1, hostOps0, hostOps0_1, hostOps0_2]
  read_results
  rfl

theorem entry_dst : W3 m ρ c (Proc.devRef .tc main_v6) = dst m c := by
  dsimp only [W3, W2, W1, hostOps0, hostOps0_1, hostOps0_2]
  read_results
  rfl

theorem entry_coef : W3 m ρ c (Proc.devRef .tc main_v29) = coef m c := by
  dsimp only [W3, W2, W1, hostOps0, hostOps0_1, hostOps0_2]
  read_results
  rfl

/-- An argument at the first region's entry is as launched: no opening stretch writes it. -/
theorem entry_arg (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = W0 m ρ c (Proc.devRef .tc b) := h2.trans (h1.trans h0)

theorem entry_arg0 : W3 m ρ c (Proc.devRef .tc main_arg0) = (m ((c.tc : Thread nD τ).loc main_arg0)) :=
  entry_arg m ρ c main_arg0 (by keeps hostOps0) (by keeps hostOps0_1) (by keeps hostOps0_2)
theorem entry_arg2 : W3 m ρ c (Proc.devRef .tc main_arg2) = (m ((c.tc : Thread nD τ).loc main_arg2)) :=
  entry_arg m ρ c main_arg2 (by keeps hostOps0) (by keeps hostOps0_1) (by keeps hostOps0_2)
theorem entry_arg3 : W3 m ρ c (Proc.devRef .tc main_arg3) = (m ((c.tc : Thread nD τ).loc main_arg3)) :=
  entry_arg m ρ c main_arg3 (by keeps hostOps0) (by keeps hostOps0_1) (by keeps hostOps0_2)
theorem entry_arg4 : W3 m ρ c (Proc.devRef .tc main_arg4) = (m ((c.tc : Thread nD τ).loc main_arg4)) :=
  entry_arg m ρ c main_arg4 (by keeps hostOps0) (by keeps hostOps0_1) (by keeps hostOps0_2)
theorem entry_arg5 : W3 m ρ c (Proc.devRef .tc main_arg5) = (m ((c.tc : Thread nD τ).loc main_arg5)) :=
  entry_arg m ρ c main_arg5 (by keeps hostOps0) (by keeps hostOps0_1) (by keeps hostOps0_2)
theorem entry_arg6 : W3 m ρ c (Proc.devRef .tc main_arg6) = (m ((c.tc : Thread nD τ).loc main_arg6)) :=
  entry_arg m ρ c main_arg6 (by keeps hostOps0) (by keeps hostOps0_1) (by keeps hostOps0_2)
theorem entry_arg7 : W3 m ρ c (Proc.devRef .tc main_arg7) = (m ((c.tc : Thread nD τ).loc main_arg7)) :=
  entry_arg m ρ c main_arg7 (by keeps hostOps0) (by keeps hostOps0_1) (by keeps hostOps0_2)

theorem carried3 : Carried m c (W3 m ρ c) :=
  ⟨entry_src m ρ c, entry_dst m ρ c, entry_coef m ρ c, entry_arg3 m ρ c, entry_arg4 m ρ c, entry_arg5 m ρ c,
    entry_arg6 m ρ c, entry_arg7 m ρ c⟩

/-! ## Through the regions and the later stretches -/

/-- A region leaves every buffer that is not one of its arrays as it found it. -/
theorem carried4 : Carried m c (W4 m ρ c) := by
  obtain ⟨h1, h2, h3, h4, h5, h6, h7, h8⟩ := carried3 m ρ c
  exact ⟨(W4_of_ne m ρ c main_v3 (by decide)).trans h1,
    (W4_of_ne m ρ c main_v6 (by decide)).trans h2,
    (W4_of_ne m ρ c main_v29 (by decide)).trans h3,
    (W4_of_ne m ρ c main_arg3 (by decide)).trans h4,
    (W4_of_ne m ρ c main_arg4 (by decide)).trans h5,
    (W4_of_ne m ρ c main_arg5 (by decide)).trans h6,
    (W4_of_ne m ρ c main_arg6 (by decide)).trans h7,
    (W4_of_ne m ρ c main_arg7 (by decide)).trans h8⟩

/-- The stretch after the first region writes none of the carried buffers. -/
theorem carried5 : Carried m c (W5 m ρ c) := by
  obtain ⟨h1, h2, h3, h4, h5, h6, h7, h8⟩ := carried4 m ρ c
  refine ⟨Eq.trans ?_ h1, Eq.trans ?_ h2, Eq.trans ?_ h3, Eq.trans ?_ h4, Eq.trans ?_ h5, Eq.trans ?_ h6, Eq.trans ?_ h7,
    Eq.trans ?_ h8⟩ <;> keeps hostOps1

/-- The second region leaves every buffer that is not one of its arrays as it found it, and W2, an array it only reads,
    too. -/
theorem carried6 : Carried m c (W6 m ρ c) := by
  obtain ⟨h1, h2, h3, h4, h5, h6, h7, h8⟩ := carried5 m ρ c
  exact ⟨(W6_of_ne m ρ c main_v3 (by decide)).trans h1,
    (W6_of_ne m ρ c main_v6 (by decide)).trans h2,
    (W6_of_ne m ρ c main_v29 (by decide)).trans h3,
    (W6_of_ne m ρ c main_arg3 (by decide)).trans h4,
    ((W6_arr m ρ c 2).trans (((dat1 (V5 m ρ) c).arrAt_in 2 rfl _).trans (A_eq1 (V5 m ρ) c 2))).trans h5,
    (W6_of_ne m ρ c main_arg5 (by decide)).trans h6,
    (W6_of_ne m ρ c main_arg6 (by decide)).trans h7,
    (W6_of_ne m ρ c main_arg7 (by decide)).trans h8⟩

/-- The stretch after the second region writes none of the carried buffers. -/
theorem carried7 : Carried m c (W7 m ρ c) := by
  obtain ⟨h1, h2, h3, h4, h5, h6, h7, h8⟩ := carried6 m ρ c
  refine ⟨Eq.trans ?_ h1, Eq.trans ?_ h2, Eq.trans ?_ h3, Eq.trans ?_ h4, Eq.trans ?_ h5, Eq.trans ?_ h6, Eq.trans ?_ h7,
    Eq.trans ?_ h8⟩ <;> keeps hostOps2

/-! ## The three stages -/

/-- After the first region its output array is x · W1. -/
theorem first_stage : W4 m ρ c (Proc.devRef .tc main_v30)
    = RowLayers.prod (N := 100000) (K := 128) (C := 16) (m ((c.tc : Thread nD τ).loc main_arg0)) (m ((c.tc : Thread nD τ).loc main_arg2)) := by
  refine (W4_arr m ρ c 2).trans ((RegionProduct.array_eq (V3 m ρ) c).trans ?_)
  show RowLayers.prod (N := 100000) (K := 128) (C := 16) (W3 m ρ c (Proc.devRef .tc main_arg0)) (W3 m ρ c (Proc.devRef .tc main_arg2)) = _
  rw [entry_arg0 m ρ c, entry_arg2 m ρ c]

/-- The stretch after the first region: the message passing step of the first stage's output, and b1 as a row. -/
theorem second_input : W5 m ρ c (Proc.devRef .tc main_v43)
    = propagate (F := Ideal) (W4 m ρ c (Proc.devRef .tc main_v3)) (W4 m ρ c (Proc.devRef .tc main_v6)) (W4 m ρ c (Proc.devRef .tc main_v29))
        (W4 m ρ c (Proc.devRef .tc main_v30)) := by
  dsimp only [W5, hostOps1]
  read_results
  rfl

theorem second_bias : W5 m ρ c (Proc.devRef .tc main_v44) = shapeCast S1x16 (W4 m ρ c (Proc.devRef .tc main_arg3)) shapeCasts_S16_S1x16 := by
  dsimp only [W5, hostOps1]
  read_results
  rfl

/-- After the second region its output array is max(aggregate (x · W1) + b1, 0) · W2. -/
theorem second_stage : W6 m ρ c (Proc.devRef .tc main_v45)
    = RegionHidden.layer (N := 100000)
        (aggregate (m ((c.tc : Thread nD τ).loc main_arg1)) (RowLayers.prod (N := 100000) (K := 128) (C := 16) (m ((c.tc : Thread nD τ).loc main_arg0)) (m ((c.tc : Thread nD τ).loc main_arg2))))
        (row16 (m ((c.tc : Thread nD τ).loc main_arg3))) (m ((c.tc : Thread nD τ).loc main_arg4)) := by
  obtain ⟨h1, h2, h3, h4, h5, h6, h7, h8⟩ := carried4 m ρ c
  obtain ⟨-, -, -, -, k5, -, -, -⟩ := carried5 m ρ c
  refine (W6_arr m ρ c 3).trans ((RegionHidden.array_eq (V5 m ρ) c).trans ?_)
  show RegionHidden.layer (N := 100000) (W5 m ρ c (Proc.devRef .tc main_v43)) (W5 m ρ c (Proc.devRef .tc main_v44)) (W5 m ρ c (Proc.devRef .tc main_arg4)) = _
  rw [second_input m ρ c, second_bias m ρ c, k5, h1, h2, h3, h4, first_stage m ρ c,
    RowLayers.row_eq (C := 16) shapeCasts_S16_S1x16 Cert.ReferenceIdeal.Gen.bcast_S16_S1x16_1]
  rfl

/-- The stretch after the second region: the message passing step of the second stage's output, b2 and bc as rows. -/
theorem third_input : W7 m ρ c (Proc.devRef .tc main_v58)
    = propagate (F := Ideal) (W6 m ρ c (Proc.devRef .tc main_v3)) (W6 m ρ c (Proc.devRef .tc main_v6)) (W6 m ρ c (Proc.devRef .tc main_v29))
        (W6 m ρ c (Proc.devRef .tc main_v45)) := by
  dsimp only [W7, hostOps2]
  read_results
  rfl

theorem third_bias : W7 m ρ c (Proc.devRef .tc main_v59) = shapeCast S1x16 (W6 m ρ c (Proc.devRef .tc main_arg5)) shapeCasts_S16_S1x16 := by
  dsimp only [W7, hostOps2]
  read_results
  rfl

theorem last_bias : W7 m ρ c (Proc.devRef .tc main_v60) = shapeCast S1x2 (W6 m ρ c (Proc.devRef .tc main_arg7)) shapeCasts_S2_S1x2 := by
  dsimp only [W7, hostOps2]
  read_results
  rfl

/-- THE RESULT: after the third region the result buffer holds the network of the launch contents. -/
theorem result_eq : W8 m ρ c (Proc.devRef .tc main_v61) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨h1, h2, h3, h4, h5, h6, h7, h8⟩ := carried6 m ρ c
  obtain ⟨-, -, -, -, -, -, k7, -⟩ := carried7 m ρ c
  refine (W8_arr m ρ c 4).trans ((RegionLogits.array_eq (V7 m ρ) c).trans ?_)
  show RegionLogits.layer (N := 100000) (W7 m ρ c (Proc.devRef .tc main_v58)) (W7 m ρ c (Proc.devRef .tc main_v59)) (W7 m ρ c (Proc.devRef .tc main_arg6))
    (W7 m ρ c (Proc.devRef .tc main_v60)) = _
  rw [third_input m ρ c, third_bias m ρ c, last_bias m ρ c, k7, h1, h2, h3, h6, h8, second_stage m ρ c,
    RowLayers.row_eq (C := 16) shapeCasts_S16_S1x16 Cert.ReferenceIdeal.Gen.bcast_S16_S1x16_1,
    RowLayers.row_eq (C := 2) shapeCasts_S2_S1x2 Cert.ReferenceIdeal.Gen.bcast_S2_S1x2_1]
  rfl

end Cert.KernelIdeal.Result

end
-- ==== Proof.ReferenceValue.lean ====
/-
  What the idealized reference program computes: its result buffer ends holding the network of the launch contents.

  The reference is one straight line of host operations. Its result, as the composed term of the arguments that its run
  states, is the network in the host's spelling, written out: the edges' endpoints, the degrees, the coefficients and the
  message passing step are the shared stage functions unfolded (the reference computes the coefficients twice, once per
  layer, from the same edge array: the same term twice), each relu the maximum with a zero array. So the term IS
  `hostNetwork` of the arguments, by unfolding, and that is the network.
-/
import proofs.«171253_j53051436040231_1_alg».proof.Proof.ReferenceRunPatched
import proofs.«171253_j53051436040231_1_alg».proof.Proof.Network

set_option maxRecDepth 16384

noncomputable section

namespace Cert.ReferenceIdeal.RefValue

open Cert.ReferenceIdeal Cert.ReferenceIdeal.Gen Cert.ReferenceIdeal.Graph Cert.ReferenceIdeal.Network
open Idealize.ShloMosaic Idealize.ShloMosaic.TcCoe Idealize.SL.Sem

/-- The reference's result term is the network of the arguments. -/
theorem result_eq (m : (ℓ : Loc nD τ sig) → Buf (Elt Ideal) ℓ) (c : Dev nD) :
    Cert.ReferenceIdeal.ValueP.res_out0 (F := Ideal) m c = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (hostNetwork_eq _ _ _ _ _ _ _ _)
  show Cert.ReferenceIdeal.ValueP.res_main_v92 (F := Ideal) m c = _
  unfold Cert.ReferenceIdeal.ValueP.res_main_v92 hostNetwork aggregate row16 row2 propagate edgeCoef invSqrtDeg degree wrapIdx
    srcIdx dstIdx
  rfl

/-- The reference's run, read: every weakly fair execution terminates with the result buffer at the network of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq m c), (h c).2⟩)
    (Cert.ReferenceIdeal.ValueP.run (F := Ideal) m ρ)

end Cert.ReferenceIdeal.RefValue

end
-- ==== Proof.lean ====
/-
  A two-layer graph convolution with a linear classifier: a kernel program of three row-tiled dense regions with the graph
  message passing on the host between them, against a reference that is one straight line of host operations.

  On the extended reals both programs compute the same function of the eight inputs,
      logits = max(aggregate (max(aggregate (x · W1) + b1, 0) · W2) + b2, 0) · Wc + bc,
  where `aggregate` gathers rows at the edges' sources, scales them by deg^(-1/2)(source) · deg^(-1/2)(target) and sums
  them into the edges' targets (self loops added, degrees counted over the targets).
    • Kernel side: each region's output array is its stage's function of its input arrays (an entry of a row-wise layer
      reads its own row only, so ten blocks of 10000 rows tile the whole-array function); the host stretches between the
      regions are the shared message passing functions of arrays that no later segment writes.
    • Reference side: its result's composed term is the same network in the host's spelling, and the host's dot_general,
      add-then-maximum and add are the product, the bias with the clamp at zero and the bias.
  The two programs apply the same operations in the same order to the same arrays, so no algebraic law joins them and no
  input needs to be finite: the precondition is never opened. The ideal pass rewrote nothing, so the preservation claim
  is trivially true. The three frame claims are the generated frames of the two kernel programs and the reference's run
  with its result dropped.
-/
import proofs.«171253_j53051436040231_1_alg».proof.Defs
import proofs.«171253_j53051436040231_1_alg».proof.Proof.Gen.Kernel
import proofs.«171253_j53051436040231_1_alg».proof.Proof.Gen.Kernel.Frame
import proofs.«171253_j53051436040231_1_alg».proof.Proof.Gen.KernelIdeal
import proofs.«171253_j53051436040231_1_alg».proof.Proof.Gen.KernelIdeal.Frame
import proofs.«171253_j53051436040231_1_alg».proof.Proof.Gen.ReferenceIdeal
import proofs.«171253_j53051436040231_1_alg».proof.Proof.Gen.Pre_finite_inputs
import proofs.«171253_j53051436040231_1_alg».proof.Proof.KernelRun
import proofs.«171253_j53051436040231_1_alg».proof.Proof.KernelValue
import proofs.«171253_j53051436040231_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the network of the arguments in their result buffers; the arguments agree. -/
theorem algebraic : Cert.algebraic_KernelIdeal_ReferenceIdeal := by
  intro m ρ m' ρ' _ hagree
  refine ⟨fun c => Cert.ReferenceIdeal.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
